-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S100000x5 : Shape := ⟨2, ![100000, 5]⟩
abbrev S2x3200000 : Shape := ⟨2, ![2, 3200000]⟩
abbrev S3200000x10 : Shape := ⟨2, ![3200000, 10]⟩
abbrev S16x10 : Shape := ⟨2, ![16, 10]⟩
abbrev S3200000 : Shape := ⟨1, ![3200000]⟩
abbrev S35x10 : Shape := ⟨2, ![35, 10]⟩
abbrev S10 : Shape := ⟨1, ![10]⟩
abbrev S10x10 : Shape := ⟨2, ![10, 10]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S3200000x10 : S_.BroadcastsInDim S3200000x10 (![] : Fin 0 → Fin S3200000x10.rank)
  reducesTo_S3200000x10_S_d0_1 : S3200000x10.ReducesTo [0, 1] S_
  bcast_S_S16x10 : S_.BroadcastsInDim S16x10 (![] : Fin 0 → Fin S16x10.rank)
  reducesTo_S16x10_S_d0_1 : S16x10.ReducesTo [0, 1] S_
  bcast_S_S35x10 : S_.BroadcastsInDim S35x10 (![] : Fin 0 → Fin S35x10.rank)
  reducesTo_S35x10_S_d0_1 : S35x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S35x10 .f32) (main_arg7 : FVec F S10 .f32) (main_arg8 : FVec F S10x10 .f32) (main_arg9 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S35x10 .f32 := Host.absf main_arg6
  let main_cst_6 : FVec F S_ .f32 := constant S_ .f32 0x7F800000#32
  let main_v20 : FVec F S35x10 .f32 := broadcastInDim S35x10 ![] bcast_S_S35x10 main_cst_6
  let main_v21 : IVec S35x10 1 := cmpf .olt main_v19 main_v20
  let main_c_7 : IVec S_ 1 := constantI S_ 1 1#1
  let main_v22 : IVec S_ 1 := (fun x v => Host.reduce IntOp.andi x v reducesTo_S35x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg8
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg9 main_v33

def fn {F : FTy → Type} [FloatOps F] (main_arg0 : FVec F S100000x10 .f32) (main_arg1 : FVec F S100000x5 .f32) (main_arg2 : IVec S2x3200000 32) (main_arg3 : FVec F S3200000x10 .f32) (main_arg4 : FVec F S16x10 .f32) (main_arg5 : IVec S3200000 32) (main_arg6 : FVec F S35x10 .f32) (main_arg7 : FVec F S10 .f32) (main_arg8 : FVec F S10x10 .f32) (main_arg9 : FVec F S10 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S100000x5 .f32 := Host.absf main_arg1
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S3200000x10 .f32 := Host.absf main_arg3
  let main_cst_2 : FVec F S_ .f32 := constant S_ .f32 0x7F800000#32
  let main_v10 : FVec F S3200000x10 .f32 := broadcastInDim S3200000x10 ![] bcast_S_S3200000x10 main_cst_2
  let main_v11 : IVec S3200000x10 1 := cmpf .olt main_v9 main_v10
  let main_c_3 : IVec S_ 1 := constantI S_ 1 1#1
  let main_v12 : IVec S_ 1 := (fun x v => Host.reduce IntOp.andi x v reducesTo_S3200000x10_S_d0_1 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg6 main_arg7 main_arg8 main_arg9 main_v13 main_v16
-- ==== Kernel.lean ====
abbrev S100000x10 : Shape := ⟨2, ![100000, 10]⟩
abbrev S100000x5 : Shape := ⟨2, ![100000, 5]⟩
abbrev S2x3200000 : Shape := ⟨2, ![2, 3200000]⟩
abbrev S3200000x10 : Shape := ⟨2, ![3200000, 10]⟩
abbrev S16x10 : Shape := ⟨2, ![16, 10]⟩
abbrev S3200000 : Shape := ⟨1, ![3200000]⟩
abbrev S35x10 : Shape := ⟨2, ![35, 10]⟩
abbrev S10 : Shape := ⟨1, ![10]⟩
abbrev S10x10 : Shape := ⟨2, ![10, 10]⟩
abbrev S1x3200000 : Shape := ⟨2, ![1, 3200000]⟩
abbrev S_ : Shape := ⟨0, ![]⟩
abbrev S3200000x1 : Shape := ⟨2, ![3200000, 1]⟩
abbrev S3200000x5 : Shape := ⟨2, ![3200000, 5]⟩
abbrev S1x10 : Shape := ⟨2, ![1, 10]⟩
abbrev S6400x10 : Shape := ⟨2, ![6400, 10]⟩
abbrev S6400x5 : Shape := ⟨2, ![6400, 5]⟩
abbrev S5x10 : Shape := ⟨2, ![5, 10]⟩

abbrev nBuf : Space → Nat
  | .hbm => 44
  | .vmem => 14
  | .smem => 0
  | _ => 0

abbrev bufTy : (tb : Table) → Fin (tcTables nBuf tb) → BufTy
  | .hbm, ⟨0, _⟩ => ⟨S100000x10, .f32⟩
  | .hbm, ⟨1, _⟩ => ⟨S100000x5, .f32⟩
  | .hbm, ⟨2, _⟩ => ⟨S2x3200000, .i32⟩
  | .hbm, ⟨3, _⟩ => ⟨S3200000x10, .f32⟩
  | .hbm, ⟨4, _⟩ => ⟨S16x10, .f32⟩
  | .hbm, ⟨5, _⟩ => ⟨S3200000, .i32⟩
  | .hbm, ⟨6, _⟩ => ⟨S35x10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x10, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x5, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x10, .f32⟩
  | .hbm, ⟨41, _⟩ => ⟨S1x10, .f32⟩
  | .hbm, ⟨42, _⟩ => ⟨S1x10, .f32⟩
  | .hbm, ⟨43, _⟩ => ⟨S3200000x10, .f32⟩
  | .local _ .vmem, ⟨0, _⟩ => ⟨S6400x10, .f32⟩
  | .local _ .vmem, ⟨1, _⟩ => ⟨S6400x10, .f32⟩
  | .local _ .vmem, ⟨2, _⟩ => ⟨S6400x5, .f32⟩
  | .local _ .vmem, ⟨3, _⟩ => ⟨S6400x5, .f32⟩
  | .local _ .vmem, ⟨4, _⟩ => ⟨S6400x10, .f32⟩
  | .local _ .vmem, ⟨5, _⟩ => ⟨S6400x10, .f32⟩
  | .local _ .vmem, ⟨6, _⟩ => ⟨S6400x10, .f32⟩
  | .local _ .vmem, ⟨7, _⟩ => ⟨S6400x10, .f32⟩
  | .local _ .vmem, ⟨8, _⟩ => ⟨S35x10, .f32⟩
  | .local _ .vmem, ⟨9, _⟩ => ⟨S1x10, .f32⟩
  | .local _ .vmem, ⟨10, _⟩ => ⟨S10x10, .f32⟩
  | .local _ .vmem, ⟨11, _⟩ => ⟨S1x10, .f32⟩
  | .local _ .vmem, ⟨12, _⟩ => ⟨S6400x10, .f32⟩
  | .local _ .vmem, ⟨13, _⟩ => ⟨S6400x10, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S35x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6400x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S10_S1x10 : S10.ShapeCasts S1x10
  inb_S6400x10_S6400x10_0_0 : ∀ a, (![0, 0] : Fin 2 → Nat) a + S6400x10.size a ≤ S6400x10.size a
  h_S6400x10 : 0 < S6400x10.numel
  shapeCasts_S6400x10_S6400x10 : S6400x10.ShapeCasts S6400x10
  bitsLt_bf16_f32 : FTy.bits .bf16 < FTy.bits .f32
  inb_S6400x5_S6400x5_0_0 : ∀ a, (![0, 0] : Fin 2 → Nat) a + S6400x5.size a ≤ S6400x5.size a
  h_S6400x5 : 0 < S6400x5.numel
  shapeCasts_S6400x5_S6400x5 : S6400x5.ShapeCasts S6400x5
  inb_S35x10_S10x10_0_0 : ∀ a, (![0, 0] : Fin 2 → Nat) a + S10x10.size a ≤ S35x10.size a
  h_S10x10 : 0 < S10x10.numel
  inb_S35x10_S5x10_10_0 : ∀ a, (![10, 0] : Fin 2 → Nat) a + S5x10.size a ≤ S35x10.size a
  h_S5x10 : 0 < S5x10.numel
  inb_S35x10_S10x10_15_0 : ∀ a, (![15, 0] : Fin 2 → Nat) a + S10x10.size a ≤ S35x10.size a
  inb_S35x10_S10x10_25_0 : ∀ a, (![25, 0] : Fin 2 → Nat) a + S10x10.size a ≤ S35x10.size a
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S6400x10 : S1x10.Broadcasts S6400x10
  inb_S10x10_S10x10_0_0 : ∀ a, (![0, 0] : Fin 2 → Nat) a + S10x10.size a ≤ S10x10.size a
  gather_S100000x10_S3200000x1_S3200000x10_1_0_n_n_0_1_110_wf : GatherDims.WF S100000x10 S3200000x1 S3200000x10 [1] [0] [] [0] [] 1 ![1, 10]
  gather_S100000x5_S3200000x1_S3200000x5_1_0_n_n_0_1_15_wf : GatherDims.WF S100000x5 S3200000x1 S3200000x5 [1] [0] [] [0] [] 1 ![1, 5]
  gather_S16x10_S3200000x1_S3200000x10_1_0_n_n_0_1_110_wf : GatherDims.WF S16x10 S3200000x1 S3200000x10 [1] [0] [] [0] [] 1 ![1, 10]
  dot_S6400x10_S10x10_S6400x10_1_0_0_1_n_n_wf : DotDims.WF S6400x10 S10x10 S6400x10 [1] [0] [0] [1] [] []
  dot_S6400x5_S5x10_S6400x10_1_0_0_1_n_n_wf : DotDims.WF S6400x5 S5x10 S6400x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x10.size a ≤ S3200000x10.size a
  hwx0_0 : ∀ i : grid0.Coords, EltTy.bits .f32 = 32 ∨ (Rect.block (s := S3200000x10) S6400x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x5.size a ≤ S3200000x5.size a
  hwx0_1 : ∀ i : grid0.Coords, EltTy.bits .f32 = 32 ∨ (Rect.block (s := S3200000x5) S6400x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x10.size a ≤ S3200000x10.size a
  hwx0_2 : ∀ i : grid0.Coords, EltTy.bits .f32 = 32 ∨ (Rect.block (s := S3200000x10) S6400x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x10.size a ≤ S3200000x10.size a
  hwx0_3 : ∀ i : grid0.Coords, EltTy.bits .f32 = 32 ∨ (Rect.block (s := S3200000x10) S6400x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S35x10.size a ≤ S35x10.size a
  hwx0_4 : ∀ i : grid0.Coords, EltTy.bits .f32 = 32 ∨ (Rect.block (s := S35x10) S35x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x10.size a ≤ S10x10.size a
  hwx0_6 : ∀ i : grid0.Coords, EltTy.bits .f32 = 32 ∨ (Rect.block (s := S10x10) S10x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6400x10.size a ≤ S3200000x10.size a
  hwx0_8 : ∀ i : grid0.Coords, EltTy.bits .f32 = 32 ∨ (Rect.block (s := S3200000x10) S6400x10.size (cc0_transform_8 i) (hinb0_8 i)).WholeWords (EltTy.packing .f32)

variable [Facts₀]

def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def gather_S16x10_S3200000x1_S3200000x10_1_0_n_n_0_1_110 : GatherDims S16x10 S3200000x1 S3200000x10 where
  offsetDims := [1]
  collapsedSliceDims := [0]
  operandBatchingDims := []
  startIndicesBatchingDims := []
  startIndexMap := [0]
  indexVectorDim := 1
  sliceSizes := ![1, 10]
  wf := gather_S16x10_S3200000x1_S3200000x10_1_0_n_n_0_1_110_wf
def dot_S6400x10_S10x10_S6400x10_1_0_0_1_n_n : DotDims S6400x10 S10x10 S6400x10 where
  lhsContracting := [1]
  rhsContracting := [0]
  lhsNonContracting := [0]
  rhsNonContracting := [1]
  lhsBatch := []
  rhsBatch := []
  wf := dot_S6400x10_S10x10_S6400x10_1_0_0_1_n_n_wf
def dot_S6400x5_S5x10_S6400x10_1_0_0_1_n_n : DotDims S6400x5 S5x10 S6400x10 where
  lhsContracting := [1]
  rhsContracting := [0]
  lhsNonContracting := [0]
  rhsNonContracting := [1]
  lhsBatch := []
  rhsBatch := []
  wf := dot_S6400x5_S5x10_S6400x10_1_0_0_1_n_n_wf

abbrev win0_0 : Pipeline.Window sig grid0 :=
  Pipeline.Window.ofSpec (Memref.whole main_v10) S6400x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S6400x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S6400x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S35x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S10x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S6400x10.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x10 : Shape := ⟨2, ![100000, 10]⟩
abbrev S100000x5 : Shape := ⟨2, ![100000, 5]⟩
abbrev S2x3200000 : Shape := ⟨2, ![2, 3200000]⟩
abbrev S3200000x10 : Shape := ⟨2, ![3200000, 10]⟩
abbrev S16x10 : Shape := ⟨2, ![16, 10]⟩
abbrev S3200000 : Shape := ⟨1, ![3200000]⟩
abbrev S35x10 : Shape := ⟨2, ![35, 10]⟩
abbrev S10 : Shape := ⟨1, ![10]⟩
abbrev S10x10 : Shape := ⟨2, ![10, 10]⟩
abbrev S1x3200000 : Shape := ⟨2, ![1, 3200000]⟩
abbrev S_ : Shape := ⟨0, ![]⟩
abbrev S3200000x1 : Shape := ⟨2, ![3200000, 1]⟩
abbrev S3200000x5 : Shape := ⟨2, ![3200000, 5]⟩
abbrev S3200000x35 : Shape := ⟨2, ![3200000, 35]⟩
abbrev S1x10 : Shape := ⟨2, ![1, 10]⟩

abbrev nBuf : Space → Nat
  | .hbm => 57
  | .vmem => 0
  | .smem => 0
  | _ => 0

abbrev bufTy : (tb : Table) → Fin (tcTables nBuf tb) → BufTy
  | .hbm, ⟨0, _⟩ => ⟨S100000x10, .f32⟩
  | .hbm, ⟨1, _⟩ => ⟨S100000x5, .f32⟩
  | .hbm, ⟨2, _⟩ => ⟨S2x3200000, .i32⟩
  | .hbm, ⟨3, _⟩ => ⟨S3200000x10, .f32⟩
  | .hbm, ⟨4, _⟩ => ⟨S16x10, .f32⟩
  | .hbm, ⟨5, _⟩ => ⟨S3200000, .i32⟩
  | .hbm, ⟨6, _⟩ => ⟨S35x10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x10, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x5, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x10, .f32⟩
  | .hbm, ⟨41, _⟩ => ⟨S3200000x35, .f32⟩
  | .hbm, ⟨42, _⟩ => ⟨S3200000x10, .f32⟩
  | .hbm, ⟨43, _⟩ => ⟨S1x10, .f32⟩
  | .hbm, ⟨44, _⟩ => ⟨S3200000x10, .f32⟩
  | .hbm, ⟨45, _⟩ => ⟨S3200000x10, .f32⟩
  | .hbm, ⟨46, _⟩ => ⟨S_, .f32⟩
  | .hbm, ⟨47, _⟩ => ⟨S3200000x10, .f32⟩
  | .hbm, ⟨48, _⟩ => ⟨S3200000x10, .i1⟩
  | .hbm, ⟨49, _⟩ => ⟨S_, .f32⟩
  | .hbm, ⟨50, _⟩ => ⟨S3200000x10, .f32⟩
  | .hbm, ⟨51, _⟩ => ⟨S3200000x10, .f32⟩
  | .hbm, ⟨52, _⟩ => ⟨S3200000x10, .f32⟩
  | .hbm, ⟨53, _⟩ => ⟨S3200000x10, .f32⟩
  | .hbm, ⟨54, _⟩ => ⟨S1x10, .f32⟩
  | .hbm, ⟨55, _⟩ => ⟨S3200000x10, .f32⟩
  | .hbm, ⟨56, _⟩ => ⟨S3200000x10, .f32⟩
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x10_S3200000x5_S3200000x10_S3200000x10_S3200000x35_d1 : Shape.Concatenates [S3200000x10, S3200000x5, S3200000x10, S3200000x10] S3200000x35 1
  bcast_S10_S1x10_1 : S10.BroadcastsInDim S1x10 (![1] : Fin 1 → Fin S1x10.rank)
  bcast_S1x10_S3200000x10_0_1 : S1x10.BroadcastsInDim S3200000x10 (![0, 1] : Fin 2 → Fin S3200000x10.rank)
  bcast_S_S3200000x10 : S_.BroadcastsInDim S3200000x10 (![] : Fin 0 → Fin S3200000x10.rank)
  gather_S100000x10_S3200000x1_S3200000x10_1_0_n_n_0_1_110_wf : GatherDims.WF S100000x10 S3200000x1 S3200000x10 [1] [0] [] [0] [] 1 ![1, 10]
  gather_S100000x5_S3200000x1_S3200000x5_1_0_n_n_0_1_15_wf : GatherDims.WF S100000x5 S3200000x1 S3200000x5 [1] [0] [] [0] [] 1 ![1, 5]
  gather_S16x10_S3200000x1_S3200000x10_1_0_n_n_0_1_110_wf : GatherDims.WF S16x10 S3200000x1 S3200000x10 [1] [0] [] [0] [] 1 ![1, 10]
  dot_S3200000x35_S35x10_S3200000x10_1_0_0_1_n_n_wf : DotDims.WF S3200000x35 S35x10 S3200000x10 [1] [0] [0] [1] [] []
  dot_S3200000x10_S10x10_S3200000x10_1_0_0_1_n_n_wf : DotDims.WF S3200000x10 S10x10 S3200000x10 [1] [0] [0] [1] [] []

variable [Facts₀]

def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def gather_S16x10_S3200000x1_S3200000x10_1_0_n_n_0_1_110 : GatherDims S16x10 S3200000x1 S3200000x10 where
  offsetDims := [1]
  collapsedSliceDims := [0]
  operandBatchingDims := []
  startIndicesBatchingDims := []
  startIndexMap := [0]
  indexVectorDim := 1
  sliceSizes := ![1, 10]
  wf := gather_S16x10_S3200000x1_S3200000x10_1_0_n_n_0_1_110_wf
def dot_S3200000x35_S35x10_S3200000x10_1_0_0_1_n_n : DotDims S3200000x35 S35x10 S3200000x10 where
  lhsContracting := [1]
  rhsContracting := [0]
  lhsNonContracting := [0]
  rhsNonContracting := [1]
  lhsBatch := []
  rhsBatch := []
  wf := dot_S3200000x35_S35x10_S3200000x10_1_0_0_1_n_n_wf
def dot_S3200000x10_S10x10_S3200000x10_1_0_0_1_n_n : DotDims S3200000x10 S10x10 S3200000x10 where
  lhsContracting := [1]
  rhsContracting := [0]
  lhsNonContracting := [0]
  rhsNonContracting := [1]
  lhsBatch := []
  rhsBatch := []
  wf := dot_S3200000x10_S10x10_S3200000x10_1_0_0_1_n_n_wf

class Facts : Prop extends Facts₀ where

variable [Facts]
-- ==== Proof.Row.lean ====
/-
  One edge of a two-layer perceptron with a leaky activation, over the extended reals.

  An edge carries four feature rows: of its source node (10 numbers), of its target node (5), of the edge itself (10)
  and of its graph (10). The first layer multiplies their concatenation, a row of 35 numbers, by a 35×10 matrix `W1`
  and adds a bias; the activation keeps a number `h` where the comparison `h ≥ 0` holds and multiplies it by a fixed
  slope otherwise; the second layer multiplies by a 10×10 matrix `W2` and adds a bias.

  Multiplying the concatenated row by `W1` is the same as multiplying each of the four rows by the band of rows of
  `W1` it meets (rows 0–9, 10–14, 15–24, 25–34) and adding the four products: a sum of 35 terms cut into consecutive
  runs of 10, 5, 10 and 10 terms. Only the commutativity and associativity of addition are used, so the law holds on
  the extended reals as it stands, infinite entries included.
-/
import Idealize.ShloMosaic.Lib.ValueIdx

noncomputable section

open scoped BigOperators

namespace Cert.EdgeMlp

open Idealize.ShloMosaic Idealize.ShloMosaic.ValueIdx

/-- A sum of 35 consecutive terms is the sum of its runs of 10, 5, 10 and 10 terms, in any commutative monoid. -/
theorem sum35_runs {M : Type} [AddCommMonoid M] (f : Fin 35 → M) :
    ∑ k : Fin 35, f k
      = ((∑ k : Fin 10, f ⟨k.val, by have := k.isLt; omega⟩ + ∑ k : Fin 5, f ⟨10 + k.val, by have := k.isLt; omega⟩)
          + ∑ k : Fin 10, f ⟨15 + k.val, by have := k.isLt; omega⟩)
        + ∑ k : Fin 10, f ⟨25 + k.val, by have := k.isLt; omega⟩ := by
  have h1 := Fin.sum_univ_add (a := 10 + 5 + 10) (b := 10) (fun k : Fin (10 + 5 + 10 + 10) => f k)
  have h2 := Fin.sum_univ_add (a := 10 + 5) (b := 10) (fun k : Fin (10 + 5 + 10) => f (Fin.castAdd 10 k))
  have h3 := Fin.sum_univ_add (a := 10) (b := 5) (fun k : Fin (10 + 5) => f (Fin.castAdd 10 (Fin.castAdd 10 k)))
  exact h1.trans (by rw [h2, h3]; rfl)

/-- The activation: `h` where the comparison `h ≥ 0` answers one, the slope times `h` otherwise. The zero and the
    slope are the 32-bit float words `0x00000000` and `0x3DCCCCCD` read as extended reals; neither is ever evaluated. -/
def act (h : EReal) : EReal :=
  Scalar.select (Ideal.cmp .oge h (Ideal.ofBits .f32 0x00000000#32)) h (Ideal.ofBits .f32 0x3DCCCCCD#32 * h)

/-- The first layer at output feature `j`, before the activation, from the edge's four feature rows: each row meets
    its own band of rows of `W1`, and the four products are added in this order, then the bias. -/
def hid (a : Fin 10 → EReal) (b : Fin 5 → EReal) (c d : Fin 10 → EReal) (W1 : Fin 35 → Fin 10 → EReal)
    (b1 : Fin 10 → EReal) (j : Fin 10) : EReal :=
  ((((∑ k : Fin 10, a k * W1 ⟨k.val, by have := k.isLt; omega⟩ j)
        + (∑ k : Fin 5, b k * W1 ⟨10 + k.val, by have := k.isLt; omega⟩ j))
      + (∑ k : Fin 10, c k * W1 ⟨15 + k.val, by have := k.isLt; omega⟩ j))
    + (∑ k : Fin 10, d k * W1 ⟨25 + k.val, by have := k.isLt; omega⟩ j)) + b1 j

/-- The edge's output at feature `j`: the second layer of the activated first layer. -/
def out (a : Fin 10 → EReal) (b : Fin 5 → EReal) (c d : Fin 10 → EReal) (W1 : Fin 35 → Fin 10 → EReal)
    (b1 : Fin 10 → EReal) (W2 : Fin 10 → Fin 10 → EReal) (b2 : Fin 10 → EReal) (j : Fin 10) : EReal :=
  (∑ k : Fin 10, act (hid a b c d W1 b1 k) * W2 k j) + b2 j

/-- The first layer from the CONCATENATED row `cat` of 35 numbers, when its four runs are the four feature rows:
    the one sum over 35 is the four sums `hid` adds. -/
theorem hid_of_cat (cat : Fin 35 → EReal) (a : Fin 10 → EReal) (b : Fin 5 → EReal) (c d : Fin 10 → EReal)
    (W1 : Fin 35 → Fin 10 → EReal) (b1 : Fin 10 → EReal) (j : Fin 10)
    (ha : ∀ k : Fin 10, cat ⟨k.val, by have := k.isLt; omega⟩ = a k)
    (hb : ∀ k : Fin 5, cat ⟨10 + k.val, by have := k.isLt; omega⟩ = b k)
    (hc : ∀ k : Fin 10, cat ⟨15 + k.val, by have := k.isLt; omega⟩ = c k)
    (hd : ∀ k : Fin 10, cat ⟨25 + k.val, by have := k.isLt; omega⟩ = d k) :
    (∑ k : Fin 35, cat k * W1 k j) + b1 j = hid a b c d W1 b1 j := by
  rw [sum35_runs (fun k => cat k * W1 k j)]
  unfold hid
  simp only [ha, hb, hc, hd]

/-- The whole result array, index by index: row `e` of the output is the perceptron of row `e` of each of the four
    feature arrays (the gathered source rows, the gathered target rows, the edge features, the gathered graph rows). -/
def G (xs : (⟨2, ![3200000, 10]⟩ : Shape).Idx → EReal) (xt : (⟨2, ![3200000, 5]⟩ : Shape).Idx → EReal)
    (ea ug : (⟨2, ![3200000, 10]⟩ : Shape).Idx → EReal) (W1 : (⟨2, ![35, 10]⟩ : Shape).Idx → EReal)
    (b1 : Fin 10 → EReal) (W2 : (⟨2, ![10, 10]⟩ : Shape).Idx → EReal) (b2 : Fin 10 → EReal) :
    (⟨2, ![3200000, 10]⟩ : Shape).Idx → EReal := fun i =>
  out (fun k => xs (ix2 (i 0) k)) (fun k => xt (ix2 (i 0) k)) (fun k => ea (ix2 (i 0) k)) (fun k => ug (ix2 (i 0) k))
    (fun k j => W1 (ix2 k j)) b1 (fun k j => W2 (ix2 k j)) b2 (i 1)

end Cert.EdgeMlp

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.KernelBlock.lean ====
/-
  What the kernel body computes for one block of 6400 edges, read at one element.

  The body loads the block's four feature arrays, the four bands of rows of `W1` (rows 0–9, 10–14, 15–24, 25–34),
  the two bias rows and `W2`; it forms four matrix products into zero accumulators, adds them and the first bias row,
  applies the activation, multiplies by `W2` and adds the second bias row. Over the extended reals the changes of float
  format are the identity and a product into a zero accumulator is the plain sum over the contracted axis, so element
  `(r, j)` of the result is the perceptron `Cert.EdgeMlp.out` of row `r` of each feature block.
-/
import proofs.«158776_j11227044512392_1_alg».proof.Proof.Gen.KernelIdeal.Skeleton
import proofs.«158776_j11227044512392_1_alg».proof.Proof.Row
import proofs.«158776_j11227044512392_1_alg».proof.Proof.LibDotSingle
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.EdgeMlp

/-- The left operand's row coordinate in this product is the result's row coordinate. -/
theorem lhs10_row (i : S6400x10.Idx) (q : dot_S6400x10_S10x10_S6400x10_1_0_0_1_n_n.contr.Idx) : (dot_S6400x10_S10x10_S6400x10_1_0_0_1_n_n.lhsIdx i q 0).val = (i 0).val := by
  unfold DotDims.lhsIdx
  rw [dif_neg (show ¬(0 : Fin S6400x10.rank) ∈ dot_S6400x10_S10x10_S6400x10_1_0_0_1_n_n.lhsBatch by decide),
    dif_pos (show (0 : Fin S6400x10.rank) ∈ dot_S6400x10_S10x10_S6400x10_1_0_0_1_n_n.lhsNonContracting by decide)]
  rfl

/-- The right operand's column coordinate in this product is the result's column coordinate. -/
theorem rhs10_col (i : S6400x10.Idx) (q : dot_S6400x10_S10x10_S6400x10_1_0_0_1_n_n.contr.Idx) : (dot_S6400x10_S10x10_S6400x10_1_0_0_1_n_n.rhsIdx i q 1).val = (i 1).val := by
  unfold DotDims.rhsIdx
  rw [dif_neg (show ¬(1 : Fin S10x10.rank) ∈ dot_S6400x10_S10x10_S6400x10_1_0_0_1_n_n.rhsBatch by decide),
    dif_pos (show (1 : Fin S10x10.rank) ∈ dot_S6400x10_S10x10_S6400x10_1_0_0_1_n_n.rhsNonContracting by decide)]
  rfl

/-- A [6400,10] by [10,10] product into the zero accumulator at `(r, j)`: the sum over the 10 shared coordinates. -/
theorem mm10 (x : FVec Ideal S6400x10 .bf16) (w : FVec Ideal S10x10 .bf16) (r : Fin 6400) (j : Fin 10) :
    matmul dot_S6400x10_S10x10_S6400x10_1_0_0_1_n_n none x w (constant (F := Ideal) S6400x10 .f32 0x00000000#32) (ix2 r j)
      = ∑ k : Fin 10, x (ix2 r k) * w (ix2 k j) :=
  Cert.LibDotSingle.matmul_zero_apply dot_S6400x10_S10x10_S6400x10_1_0_0_1_n_n 10 rfl rfl none x w (ix2 r j)
    (fun k => ix2 r k) (fun k => ix2 k j)
    (fun k => funext fun a => Fin.ext (by
      match a with
      | ⟨0, _⟩ => exact lhs10_row _ _
      | ⟨1, _⟩ =>
        exact (dot_S6400x10_S10x10_S6400x10_1_0_0_1_n_n.lhsIdx_val_of_single rfl _ _).trans (contrEquiv1_symm_val dot_S6400x10_S10x10_S6400x10_1_0_0_1_n_n 10 rfl rfl k)))
    (fun k => funext fun a => Fin.ext (by
      match a with
      | ⟨0, _⟩ =>
        exact (dot_S6400x10_S10x10_S6400x10_1_0_0_1_n_n.rhsIdx_val_of_single rfl _ _).trans (contrEquiv1_symm_val dot_S6400x10_S10x10_S6400x10_1_0_0_1_n_n 10 rfl rfl k)
      | ⟨1, _⟩ => exact rhs10_col _ _))

/-- The left operand's row coordinate in this product is the result's row coordinate. -/
theorem lhs5_row (i : S6400x10.Idx) (q : dot_S6400x5_S5x10_S6400x10_1_0_0_1_n_n.contr.Idx) : (dot_S6400x5_S5x10_S6400x10_1_0_0_1_n_n.lhsIdx i q 0).val = (i 0).val := by
  unfold DotDims.lhsIdx
  rw [dif_neg (show ¬(0 : Fin S6400x5.rank) ∈ dot_S6400x5_S5x10_S6400x10_1_0_0_1_n_n.lhsBatch by decide),
    dif_pos (show (0 : Fin S6400x5.rank) ∈ dot_S6400x5_S5x10_S6400x10_1_0_0_1_n_n.lhsNonContracting by decide)]
  rfl

/-- The right operand's column coordinate in this product is the result's column coordinate. -/
theorem rhs5_col (i : S6400x10.Idx) (q : dot_S6400x5_S5x10_S6400x10_1_0_0_1_n_n.contr.Idx) : (dot_S6400x5_S5x10_S6400x10_1_0_0_1_n_n.rhsIdx i q 1).val = (i 1).val := by
  unfold DotDims.rhsIdx
  rw [dif_neg (show ¬(1 : Fin S5x10.rank) ∈ dot_S6400x5_S5x10_S6400x10_1_0_0_1_n_n.rhsBatch by decide),
    dif_pos (show (1 : Fin S5x10.rank) ∈ dot_S6400x5_S5x10_S6400x10_1_0_0_1_n_n.rhsNonContracting by decide)]
  rfl

/-- A [6400,5] by [5,10] product into the zero accumulator at `(r, j)`: the sum over the 5 shared coordinates. -/
theorem mm5 (x : FVec Ideal S6400x5 .bf16) (w : FVec Ideal S5x10 .bf16) (r : Fin 6400) (j : Fin 10) :
    matmul dot_S6400x5_S5x10_S6400x10_1_0_0_1_n_n none x w (constant (F := Ideal) S6400x10 .f32 0x00000000#32) (ix2 r j)
      = ∑ k : Fin 5, x (ix2 r k) * w (ix2 k j) :=
  Cert.LibDotSingle.matmul_zero_apply dot_S6400x5_S5x10_S6400x10_1_0_0_1_n_n 5 rfl rfl none x w (ix2 r j)
    (fun k => ix2 r k) (fun k => ix2 k j)
    (fun k => funext fun a => Fin.ext (by
      match a with
      | ⟨0, _⟩ => exact lhs5_row _ _
      | ⟨1, _⟩ =>
        exact (dot_S6400x5_S5x10_S6400x10_1_0_0_1_n_n.lhsIdx_val_of_single rfl _ _).trans (contrEquiv1_symm_val dot_S6400x5_S5x10_S6400x10_1_0_0_1_n_n 5 rfl rfl k)))
    (fun k => funext fun a => Fin.ext (by
      match a with
      | ⟨0, _⟩ =>
        exact (dot_S6400x5_S5x10_S6400x10_1_0_0_1_n_n.rhsIdx_val_of_single rfl _ _).trans (contrEquiv1_symm_val dot_S6400x5_S5x10_S6400x10_1_0_0_1_n_n 5 rfl rfl k)
      | ⟨1, _⟩ => exact rhs5_col _ _))

/-- A bias row [1,10], cast to its own shape and spread over the 6400 rows, at `(r, j)` is the row at `j`. -/
theorem bias_row (v : FVec Ideal S1x10 .f32) (hc : S1x10.ShapeCasts S1x10) (hb : S1x10.Broadcasts S6400x10)
    (r : Fin 6400) (j : Fin 10) :
    broadcastTo S6400x10 (shapeCast S1x10 v hc) hb (ix2 r j) = v (ix2 0 j) := by
  rw [shapeCast_self]
  exact broadcastTo_1b_ab_apply v hb r j

/-- THE BLOCK'S VALUE AT AN ELEMENT: element `(r, j)` of what the body stores is the perceptron of row `r` of the four
    feature blocks, with the four bands of `W1`, the bias rows and `W2` as loaded. -/
theorem pay_apply (v0 : Vec Ideal S6400x10 .f32) (v3 : Vec Ideal S6400x5 .f32) (v6 v8 : Vec Ideal S6400x10 .f32)
    (v11 : Vec Ideal S10x10 .f32) (v13 : Vec Ideal S5x10 .f32) (v15 v17 : Vec Ideal S10x10 .f32)
    (v26 : Vec Ideal S1x10 .f32) (v36 : Vec Ideal S10x10 .f32) (v39 : Vec Ideal S1x10 .f32) (r : Fin 6400) (j : Fin 10) :
    k0_pay1 (k0_pay2 v0 v3 v6 v8 v11 v13 v15 v17 v26) v36 v39 (ix2 r j)
      = (∑ k : Fin 10, act (((((∑ k' : Fin 10, v0 (ix2 r k') * v11 (ix2 k' k))
            + (∑ k' : Fin 5, v3 (ix2 r k') * v13 (ix2 k' k)))
            + (∑ k' : Fin 10, v6 (ix2 r k') * v15 (ix2 k' k)))
            + (∑ k' : Fin 10, v8 (ix2 r k') * v17 (ix2 k' k))) + v26 (ix2 0 k)) * v36 (ix2 k j)) + v39 (ix2 0 j) := by
  unfold k0_pay1
  rw [addf_apply, mm10, bias_row]
  refine congrArg (· + v39 (ix2 0 j)) (Finset.sum_congr rfl fun k _ => ?_)
  refine congrArg (· * v36 (ix2 k j)) ?_
  unfold k0_pay2
  rw [truncf_apply, select_apply, cmpf_apply, mulf_apply, broadcast_apply, broadcast_apply,
    addf_apply, addf_apply, addf_apply, addf_apply, mm10, mm5, mm10, mm10, bias_row]
  simp only [truncf_apply, shapeCast_self]
  rfl

/-- THE BLOCK IS A BLOCK OF `G`: if row `y 0` of each loaded feature block is row `e` of its array, the four loaded
    bands are the bands of rows 0–9, 10–14, 15–24, 25–34 of `W1`, and the loaded bias rows and `W2` are the arrays',
    then element `y` of what the body stores is `G` of the arrays at row `e`, column `y 1`. -/
theorem pay_eq_G (A0 : S3200000x10.Idx → EReal) (A1 : S3200000x5.Idx → EReal) (A2 A3 : S3200000x10.Idx → EReal)
    (A4 : S35x10.Idx → EReal) (b1 : Fin 10 → EReal) (A6 : S10x10.Idx → EReal) (b2 : Fin 10 → EReal)
    (v0 : Vec Ideal S6400x10 .f32) (v3 : Vec Ideal S6400x5 .f32) (v6 v8 : Vec Ideal S6400x10 .f32)
    (v11 : Vec Ideal S10x10 .f32) (v13 : Vec Ideal S5x10 .f32) (v15 v17 : Vec Ideal S10x10 .f32)
    (v26 : Vec Ideal S1x10 .f32) (v36 : Vec Ideal S10x10 .f32) (v39 : Vec Ideal S1x10 .f32)
    (y : S6400x10.Idx) (e : Fin 3200000)
    (h0 : ∀ k : Fin 10, v0 (ix2 (y 0) k) = A0 (ix2 e k)) (h3 : ∀ k : Fin 5, v3 (ix2 (y 0) k) = A1 (ix2 e k))
    (h6 : ∀ k : Fin 10, v6 (ix2 (y 0) k) = A2 (ix2 e k)) (h8 : ∀ k : Fin 10, v8 (ix2 (y 0) k) = A3 (ix2 e k))
    (h11 : ∀ (k' k : Fin 10), v11 (ix2 k' k) = A4 (ix2 (⟨k'.val, by have := k'.isLt; omega⟩ : Fin 35) k))
    (h13 : ∀ (k' : Fin 5) (k : Fin 10), v13 (ix2 k' k) = A4 (ix2 (⟨10 + k'.val, by have := k'.isLt; omega⟩ : Fin 35) k))
    (h15 : ∀ (k' k : Fin 10), v15 (ix2 k' k) = A4 (ix2 (⟨15 + k'.val, by have := k'.isLt; omega⟩ : Fin 35) k))
    (h17 : ∀ (k' k : Fin 10), v17 (ix2 k' k) = A4 (ix2 (⟨25 + k'.val, by have := k'.isLt; omega⟩ : Fin 35) k))
    (h26 : ∀ k : Fin 10, v26 (ix2 0 k) = b1 k) (h36 : ∀ (k j : Fin 10), v36 (ix2 k j) = A6 (ix2 k j))
    (h39 : ∀ k : Fin 10, v39 (ix2 0 k) = b2 k) :
    k0_pay1 (k0_pay2 v0 v3 v6 v8 v11 v13 v15 v17 v26) v36 v39 y = G A0 A1 A2 A3 A4 b1 A6 b2 (ix2 e (y 1)) := by
  obtain ⟨r, j, rfl⟩ : ∃ (r : Fin 6400) (j : Fin 10), y = ix2 r j := ⟨y 0, y 1, eq_ix2 y⟩
  rw [pay_apply]
  unfold G out hid
  simp only [h0, h3, h6, h8, h11, h13, h15, h17, h26, h36, h39]

end Cert.KernelIdeal.Hand

end
-- ==== Proof.KernelArray.lean ====
/-
  From blocks to the array: what the result array holds after the kernel's run.

  The grid has 500 points; point `t` reads rows `6400·t … 6400·t + 6399` of each of the four feature arrays, the whole
  of `W1`, `W2` and the two bias rows, and writes rows `6400·t … 6400·t + 6399` of the result. So what point `t`
  writes back is block `t` of the one function `G` of the arrays as the kernel finds them, the 500 blocks cover the
  3 200 000 rows (row `e` lies in block `e / 6400`), and the array ends holding `G`.
-/
import proofs.«158776_j11227044512392_1_alg».proof.Proof.Gen.KernelIdeal.Value
import proofs.«158776_j11227044512392_1_alg».proof.Proof.KernelBlock

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The printed index maps over the 500 grid points: the four feature windows and the result window are at block
    `(t, 0)`; the windows of `W1`, `W2` and the bias rows stay at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem pt_lt (t : Fin cfg0.N) : t.val < 500 := Nat.lt_of_lt_of_eq t.isLt N_0

/-- Row `r` of point `t`'s blocks is row `6400·t + r` of the arrays. -/
abbrev rowOf (t : Fin cfg0.N) (r : Fin 6400) : Fin 3200000 :=
  ⟨t.val * 6400 + r.val, by have := pt_lt t; have := r.isLt; omega⟩

/-! ## Each window's block, read where it lies in its array -/

theorem read0 (c : Dev nD) (t : Fin cfg0.N) (r : Fin 6400) (k : Fin 10) :
    iblk m c 0 t (ix2 r k) = V m c main_v10 (ix2 (rowOf t r) k) := by
  show V m c main_v10 (((cfg0.win 0).blk t).view.emb (ix2 r k)) = _
  refine congrArg (V m c main_v10) (funext fun a => Fin.ext ?_)
  obtain ⟨⟨e0, e1⟩, -⟩ := idx_facts t
  match a with
  | ⟨0, _⟩ => show win0_0.index t (0 : Fin 2) * 6400 + 1 * r.val = t.val * 6400 + r.val; rw [e0]; omega
  | ⟨1, _⟩ => show win0_0.index t (1 : Fin 2) * 10 + 1 * k.val = k.val; rw [e1]; omega

theorem read1 (c : Dev nD) (t : Fin cfg0.N) (r : Fin 6400) (k : Fin 5) :
    iblk m c 1 t (ix2 r k) = V m c main_v17 (ix2 (rowOf t r) k) := by
  show V m c main_v17 (((cfg0.win 1).blk t).view.emb (ix2 r k)) = _
  refine congrArg (V m c main_v17) (funext fun a => Fin.ext ?_)
  obtain ⟨-, ⟨e0, e1⟩, -⟩ := idx_facts t
  match a with
  | ⟨0, _⟩ => show win0_1.index t (0 : Fin 2) * 6400 + 1 * r.val = t.val * 6400 + r.val; rw [e0]; omega
  | ⟨1, _⟩ => show win0_1.index t (1 : Fin 2) * 5 + 1 * k.val = k.val; rw [e1]; omega

theorem read2 (c : Dev nD) (t : Fin cfg0.N) (r : Fin 6400) (k : Fin 10) :
    iblk m c 2 t (ix2 r k) = V m c main_arg3 (ix2 (rowOf t r) k) := by
  show V m c main_arg3 (((cfg0.win 2).blk t).view.emb (ix2 r k)) = _
  refine congrArg (V m c main_arg3) (funext fun a => Fin.ext ?_)
  obtain ⟨-, -, ⟨e0, e1⟩, -⟩ := idx_facts t
  match a with
  | ⟨0, _⟩ => show win0_2.index t (0 : Fin 2) * 6400 + 1 * r.val = t.val * 6400 + r.val; rw [e0]; omega
  | ⟨1, _⟩ => show win0_2.index t (1 : Fin 2) * 10 + 1 * k.val = k.val; rw [e1]; omega

theorem read3 (c : Dev nD) (t : Fin cfg0.N) (r : Fin 6400) (k : Fin 10) :
    iblk m c 3 t (ix2 r k) = V m c main_v24 (ix2 (rowOf t r) k) := by
  show V m c main_v24 (((cfg0.win 3).blk t).view.emb (ix2 r k)) = _
  refine congrArg (V m c main_v24) (funext fun a => Fin.ext ?_)
  obtain ⟨-, -, -, ⟨e0, e1⟩, -⟩ := idx_facts t
  match a with
  | ⟨0, _⟩ => show win0_3.index t (0 : Fin 2) * 6400 + 1 * r.val = t.val * 6400 + r.val; rw [e0]; omega
  | ⟨1, _⟩ => show win0_3.index t (1 : Fin 2) * 10 + 1 * k.val = k.val; rw [e1]; omega

/-- The window of `W1` is the whole array at every point. -/
theorem read4 (c : Dev nD) (t : Fin cfg0.N) (p : Fin 35) (k : Fin 10) :
    iblk m c 4 t (ix2 p k) = V m c main_arg6 (ix2 p k) := by
  show V m c main_arg6 (((cfg0.win 4).blk t).view.emb (ix2 p k)) = _
  refine congrArg (V m c main_arg6) (funext fun a => Fin.ext ?_)
  obtain ⟨-, -, -, -, ⟨e0, e1⟩, -⟩ := idx_facts t
  match a with
  | ⟨0, _⟩ => show win0_4.index t (0 : Fin 2) * 35 + 1 * p.val = p.val; rw [e0]; omega
  | ⟨1, _⟩ => show win0_4.index t (1 : Fin 2) * 10 + 1 * k.val = k.val; rw [e1]; omega

theorem read5 (c : Dev nD) (t : Fin cfg0.N) (k : Fin 10) :
    iblk m c 5 t (ix2 0 k) = V m c main_v25 (ix2 0 k) := by
  show V m c main_v25 (((cfg0.win 5).blk t).view.emb (ix2 0 k)) = _
  refine congrArg (V m c main_v25) (funext fun a => Fin.ext ?_)
  obtain ⟨-, -, -, -, -, ⟨e0, e1⟩, -⟩ := idx_facts t
  match a with
  | ⟨0, _⟩ => show win0_5.index t (0 : Fin 2) * 1 + 1 * 0 = 0; rw [e0]
  | ⟨1, _⟩ => show win0_5.index t (1 : Fin 2) * 10 + 1 * k.val = k.val; rw [e1]; omega

theorem read6 (c : Dev nD) (t : Fin cfg0.N) (p k : Fin 10) :
    iblk m c 6 t (ix2 p k) = V m c main_arg8 (ix2 p k) := by
  show V m c main_arg8 (((cfg0.win 6).blk t).view.emb (ix2 p k)) = _
  refine congrArg (V m c main_arg8) (funext fun a => Fin.ext ?_)
  obtain ⟨-, -, -, -, -, -, ⟨e0, e1⟩, -⟩ := idx_facts t
  match a with
  | ⟨0, _⟩ => show win0_6.index t (0 : Fin 2) * 10 + 1 * p.val = p.val; rw [e0]; omega
  | ⟨1, _⟩ => show win0_6.index t (1 : Fin 2) * 10 + 1 * k.val = k.val; rw [e1]; omega

theorem read7 (c : Dev nD) (t : Fin cfg0.N) (k : Fin 10) :
    iblk m c 7 t (ix2 0 k) = V m c main_v26 (ix2 0 k) := by
  show V m c main_v26 (((cfg0.win 7).blk t).view.emb (ix2 0 k)) = _
  refine congrArg (V m c main_v26) (funext fun a => Fin.ext ?_)
  obtain ⟨-, -, -, -, -, -, -, ⟨e0, e1⟩, -⟩ := idx_facts t
  match a with
  | ⟨0, _⟩ => show win0_7.index t (0 : Fin 2) * 1 + 1 * 0 = 0; rw [e0]
  | ⟨1, _⟩ => show win0_7.index t (1 : Fin 2) * 10 + 1 * k.val = k.val; rw [e1]; omega

/-- A band of `W1`'s rows loaded from the staged copy: `n` rows from row `o` on, at `(p, k)`, is the copy at `(o + p, k)`. -/
theorem band (X : Vec Ideal S35x10 .f32) (o n : Nat) (inb : ∀ a, (![o, 0] : Fin 2 → Nat) a + (![n, 10] : Fin 2 → Nat) a ≤ S35x10.size a)
    (p : Fin n) (k : Fin 10) (hp : o + p.val < 35) :
    View.ld X (Rect.unit (s := S35x10) ![o, 0] ![n, 10] inb) (ix2 p k) = X (ix2 (⟨o + p.val, hp⟩ : Fin 35) k) := by
  show X ((Rect.unit (s := S35x10) ![o, 0] ![n, 10] inb).emb (ix2 p k)) = _
  refine congrArg X (funext fun a => Fin.ext ?_)
  match a with
  | ⟨0, _⟩ => show o + 1 * p.val = o + p.val; omega
  | ⟨1, _⟩ => show 0 + 1 * k.val = k.val; omega

/-! ## The array after the run -/

/-- `G` of the arrays as the kernel's region finds them. -/
def Garr (c : Dev nD) : S3200000x10.Idx → EReal :=
  G (V m c main_v10) (V m c main_v17) (V m c main_arg3) (V m c main_v24) (V m c main_arg6)
    (fun k => V m c main_v25 (ix2 0 k)) (V m c main_arg8) (fun k => V m c main_v26 (ix2 0 k))

/-- WHAT POINT `t` WRITES BACK is block `t` of `Garr`. -/
theorem flushed_eq (c : Dev nD) (t : Fin cfg0.N) :
    (dats m 0 c).flushed 8 t = ((cfg0.win 8).blk t).view.read (Elt Ideal) (Garr m c) := by
  rw [Cert.KernelIdeal.Value.flushed8]
  funext y
  show out0_8 (iblk m c 0 t) (iblk m c 1 t) (iblk m c 2 t) (iblk m c 3 t) (iblk m c 4 t) (iblk m c 5 t) (iblk m c 6 t) (iblk m c 7 t) y
    = Garr m c (((cfg0.win 8).blk t).view.emb y)
  unfold out0_8
  rw [View.canon_unit_zero zero_off]
  have hy0 : (y 0).val < 6400 := (y 0).isLt
  have hy1 : (y 1).val < 10 := (y 1).isLt
  refine (pay_eq_G (V m c main_v10) (V m c main_v17) (V m c main_arg3) (V m c main_v24) (V m c main_arg6)
    (fun k => V m c main_v25 (ix2 0 k)) (V m c main_arg8) (fun k => V m c main_v26 (ix2 0 k))
    _ _ _ _ _ _ _ _ _ _ _ y (rowOf t ⟨(y 0).val, hy0⟩)
    (fun k => (congrFun (View.ld_unit_zero (S := S6400x10) zero_off _ _) _).trans (read0 m c t _ k))
    (fun k => (congrFun (View.ld_unit_zero (S := S6400x5) zero_off _ _) _).trans (read1 m c t _ k))
    (fun k => (congrFun (View.ld_unit_zero (S := S6400x10) zero_off _ _) _).trans (read2 m c t _ k))
    (fun k => (congrFun (View.ld_unit_zero (S := S6400x10) zero_off _ _) _).trans (read3 m c t _ k))
    (fun k' k => (band _ 0 10 _ k' k (by have := k'.isLt; omega)).trans ((read4 m c t _ k).trans (by simp only [Nat.zero_add])))
    (fun k' k => (band _ 10 5 _ k' k (by have := k'.isLt; omega)).trans (read4 m c t _ k))
    (fun k' k => (band _ 15 10 _ k' k (by have := k'.isLt; omega)).trans (read4 m c t _ k))
    (fun k' k => (band _ 25 10 _ k' k (by have := k'.isLt; omega)).trans (read4 m c t _ k))
    (fun k => (congrFun (View.ld_unit_zero (S := S1x10) zero_off _ _) _).trans (read5 m c t k))
    (fun k j => (congrFun (View.ld_unit_zero (S := S10x10) zero_off _ _) _).trans (read6 m c t k j))
    (fun k => (congrFun (View.ld_unit_zero (S := S1x10) zero_off _ _) _).trans (read7 m c t k))).trans ?_
  unfold Garr
  refine congrArg (G _ _ _ _ _ _ _ _) (funext fun a => Fin.ext ?_)
  obtain ⟨-, -, -, -, -, -, -, -, ⟨e0, e1⟩⟩ := idx_facts t
  match a with
  | ⟨0, _⟩ => show t.val * 6400 + (y 0).val = win0_8.index t (0 : Fin 2) * 6400 + 1 * (y 0).val; rw [e0]; omega
  | ⟨1, _⟩ => show (y 1).val = win0_8.index t (1 : Fin 2) * 10 + 1 * (y 1).val; rw [e1]; omega

/-- An index of the result array is in point `t`'s block iff each coordinate is in the block's range on its axis. -/
theorem mem_blk (t : Fin cfg0.N) (i : S3200000x10.Idx) :
    i ∈ ((cfg0.win 8).blk t).view.set ↔ ∀ a : Fin 2, win0_8.index t a * S6400x10.size a ≤ (i a).val
      ∧ (i a).val < win0_8.index t a * S6400x10.size a + S6400x10.size a := by
  show i ∈ ((View.whole main_v27).slice (win0_8.rect t)).set ↔ _
  rw [View.set_slice_whole, Rect.mem_set_unit]
  exact Iff.rfl

/-- THE ARRAY after the run is `Garr`: row `e` lies in the block of point `e / 6400`. -/
theorem final (c : Dev nD) : (dats m 0 c).arrAt 8 cfg0.N = Garr m c :=
  (dats m 0 c).arrAt_eq_of_cover 8 (Garr m c) (fun t _ => flushed_eq m c t) fun i => by
    have hi0 : (i 0).val < 3200000 := (i 0).isLt
    have hi1 : (i 1).val < 10 := (i 1).isLt
    have hN : cfg0.N = 500 := N_0
    let t : Fin cfg0.N := ⟨(i 0).val / 6400, by rw [hN]; omega⟩
    refine ⟨t, flush0_8 t, ?_⟩
    rw [mem_blk]
    obtain ⟨-, -, -, -, -, -, -, -, ⟨e0, e1⟩⟩ := idx_facts t
    have ht : t.val = (i 0).val / 6400 := rfl
    intro a
    match a with
    | ⟨0, _⟩ =>
      show win0_8.index t (0 : Fin 2) * 6400 ≤ (i 0).val ∧ (i 0).val < win0_8.index t (0 : Fin 2) * 6400 + 6400
      rw [e0, ht]; omega
    | ⟨1, _⟩ =>
      show win0_8.index t (1 : Fin 2) * 10 ≤ (i 1).val ∧ (i 1).val < win0_8.index t (1 : Fin 2) * 10 + 10
      rw [e1]; omega

/-- The kernel's run with the result array named: it ends holding `Garr`, the arguments unchanged. -/
theorem run : θ_run defs (onTc (τ := τ) (main (F := Ideal))) ⟨m, fun _ => 0, ρ⟩ fun r => ∀ c : Dev nD,
      r.2.mem ((c : Thread nD τ).loc main_v27) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.Hand

end
-- ==== Proof.Bridge.lean ====
/-
  The host side the two programs share, and the kernel's result as a function of the arguments.

  Before its region the kernel's program gathers the source, target and graph rows of every edge exactly as the
  reference does — the same operations on the same arguments — and reshapes each bias vector [10] into a row [1,10].
  So the arrays the kernel's region finds are the reference's three gather stages and the arguments themselves, a bias
  row at `(0, k)` is the bias vector at `k`, and the array the kernel's run ends with is `G` of the reference's own
  stages. The gathers are never opened: each is carried as one term on both sides.
-/
import proofs.«158776_j11227044512392_1_alg».proof.Proof.KernelArray
import proofs.«158776_j11227044512392_1_alg».proof.Proof.Gen.ReferenceIdeal.Read
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx Cert.EdgeMlp

variable (m : (ℓ : Loc nD τ sig) → Buf (Elt Ideal) ℓ) (ρ : Dev nD → PrngReg)

/-- The gathered source rows the region finds are the reference's gather stage of the same two arguments. -/
theorem V_src (c : Dev nD) :
    (V m c main_v10 : S3200000x10.Idx → EReal)
      = Cert.ReferenceIdeal.Read.val_main_v10 (F := Ideal) (m ((c : Thread nD τ).loc main_arg0)) (m ((c : Thread nD τ).loc main_arg2)) := by
  dsimp only [Gen.V, Gen.hostOps0]
  after_results_simp <;> rfl

/-- The gathered target rows the region finds are the reference's gather stage of the same two arguments. -/
theorem V_tgt (c : Dev nD) :
    (V m c main_v17 : S3200000x5.Idx → EReal)
      = Cert.ReferenceIdeal.Read.val_main_v17 (F := Ideal) (m ((c : Thread nD τ).loc main_arg1)) (m ((c : Thread nD τ).loc main_arg2)) := by
  dsimp only [Gen.V, Gen.hostOps0]
  after_results_simp <;> rfl

/-- The gathered graph rows the region finds are the reference's gather stage of the same two arguments. -/
theorem V_graph (c : Dev nD) :
    (V m c main_v24 : S3200000x10.Idx → EReal)
      = Cert.ReferenceIdeal.Read.val_main_v24 (F := Ideal) (m ((c : Thread nD τ).loc main_arg4)) (m ((c : Thread nD τ).loc main_arg5)) := by
  dsimp only [Gen.V, Gen.hostOps0]
  after_results_simp <;> rfl

/-- The first bias row the region finds, at `(0, k)`, is the first bias vector at `k`. -/
theorem V_bias1 (c : Dev nD) (k : Fin 10) :
    (V m c main_v25 : S1x10.Idx → EReal) (ix2 0 k) = ((m ((c : Thread nD τ).loc main_arg7)) : S10.Idx → EReal) (ix1 k) := by
  have e : (V m c main_v25 : S1x10.Idx → EReal)
      = shapeCast S1x10 ((m ((c : Thread nD τ).loc main_arg7)) : S10.Idx → EReal) shapeCasts_S10_S1x10 := by
    dsimp only [Gen.V, Gen.hostOps0]
    after_results_simp <;> rfl
  rw [e]
  exact shapeCast_a_1a_apply _ _ 0 k

/-- The second bias row the region finds, at `(0, k)`, is the second bias vector at `k`. -/
theorem V_bias2 (c : Dev nD) (k : Fin 10) :
    (V m c main_v26 : S1x10.Idx → EReal) (ix2 0 k) = ((m ((c : Thread nD τ).loc main_arg9)) : S10.Idx → EReal) (ix1 k) := by
  have e : (V m c main_v26 : S1x10.Idx → EReal)
      = shapeCast S1x10 ((m ((c : Thread nD τ).loc main_arg9)) : S10.Idx → EReal) shapeCasts_S10_S1x10 := by
    dsimp only [Gen.V, Gen.hostOps0]
    after_results_simp <;> rfl
  rw [e]
  exact shapeCast_a_1a_apply _ _ 0 k

/-- The common result: `G` of the three gather stages (the reference's own terms, at the kernel's arguments) and the
    arguments. -/
def result (c : Dev nD) : S3200000x10.Idx → EReal :=
  G (Cert.ReferenceIdeal.Read.val_main_v10 (F := Ideal) (m ((c : Thread nD τ).loc main_arg0)) (m ((c : Thread nD τ).loc main_arg2)))
    (Cert.ReferenceIdeal.Read.val_main_v17 (F := Ideal) (m ((c : Thread nD τ).loc main_arg1)) (m ((c : Thread nD τ).loc main_arg2)))
    (m ((c : Thread nD τ).loc main_arg3))
    (Cert.ReferenceIdeal.Read.val_main_v24 (F := Ideal) (m ((c : Thread nD τ).loc main_arg4)) (m ((c : Thread nD τ).loc main_arg5)))
    (m ((c : Thread nD τ).loc main_arg6)) (fun k => ((m ((c : Thread nD τ).loc main_arg7)) : S10.Idx → EReal) (ix1 k))
    (m ((c : Thread nD τ).loc main_arg8)) (fun k => ((m ((c : Thread nD τ).loc main_arg9)) : S10.Idx → EReal) (ix1 k))

/-- What the kernel's run leaves in the result array is the common result. -/
theorem Garr_eq (c : Dev nD) : Garr m c = result m c := by
  unfold Garr result
  rw [V_src m c, V_tgt m c, V_graph m c, V_main_arg3 m c, V_main_arg6 m c, V_main_arg8 m c]
  simp only [V_bias1 m c, V_bias2 m c]

/-- The kernel's run: it ends with the common result, the arguments unchanged. -/
theorem run_result : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (Garr_eq m c), (h c).2⟩) (run m ρ)

end Cert.KernelIdeal.Hand

end
-- ==== Proof.RefValue.lean ====
/-
  The reference, read at one element of its result.

  The reference gathers the source, target and graph rows of every edge, joins them with the edge features into rows
  of 35 numbers, multiplies by `W1` in ONE product over the 35 joined coordinates, adds the bias, applies the activation,
  multiplies by `W2` and adds the second bias. A joined row's runs of 10, 5, 10 and 10 coordinates are the four feature
  rows, so by the law of `Cert.EdgeMlp.hid_of_cat` the one product is the sum of the four band products, and the result
  is the function `G` of the three gathered arrays and the arguments.
-/
import proofs.«158776_j11227044512392_1_alg».proof.Proof.Gen.ReferenceIdeal.Read
import proofs.«158776_j11227044512392_1_alg».proof.Proof.Row
import Idealize.ShloMosaic.Lib.ValueIdx
import Idealize.ShloMosaic.Lib.Pipeline.Value

noncomputable section

open scoped BigOperators

namespace Cert.ReferenceIdeal.Hand

open Cert.ReferenceIdeal Cert.ReferenceIdeal.Gen Cert.ReferenceIdeal.Read Idealize.ShloMosaic
open Idealize.ShloMosaic.ValueIdx Cert.EdgeMlp

/-! ## The joined row's four runs -/

/-- Coordinates 0–9 of a joined row are the first piece's row. -/
theorem cat_run0 {α : Type} (y0 : S3200000x10.Idx → α) (y1 : S3200000x5.Idx → α) (y2 y3 : S3200000x10.Idx → α)
    (h : Shape.Concatenates (([⟨S3200000x10, y0⟩, ⟨S3200000x5, y1⟩, ⟨S3200000x10, y2⟩, ⟨S3200000x10, y3⟩] : List ((s : Shape) × (s.Idx → α))).map (·.1)) S3200000x35 1)
    (e : Fin 3200000) (k : Fin 10) :
    concatenate S3200000x35 1 [⟨S3200000x10, y0⟩, ⟨S3200000x5, y1⟩, ⟨S3200000x10, y2⟩, ⟨S3200000x10, y3⟩] h (ix2 e (⟨k.val, by have := k.isLt; omega⟩ : Fin 35)) = y0 (ix2 e k) :=
  concatenate_apply_piece 1 _ h _ 0 (by show 0 < 4; omega) S3200000x10 y0 rfl rfl 0 rfl (ix2 e k)
    (fun b hb => by
      match b with
      | ⟨0, _⟩ => rfl
      | ⟨1, _⟩ => exact absurd rfl hb)
    (by show 0 + k.val = k.val; omega)

/-- Coordinates 10–14 of a joined row are the second piece's row. -/
theorem cat_run1 {α : Type} (y0 : S3200000x10.Idx → α) (y1 : S3200000x5.Idx → α) (y2 y3 : S3200000x10.Idx → α)
    (h : Shape.Concatenates (([⟨S3200000x10, y0⟩, ⟨S3200000x5, y1⟩, ⟨S3200000x10, y2⟩, ⟨S3200000x10, y3⟩] : List ((s : Shape) × (s.Idx → α))).map (·.1)) S3200000x35 1)
    (e : Fin 3200000) (k : Fin 5) :
    concatenate S3200000x35 1 [⟨S3200000x10, y0⟩, ⟨S3200000x5, y1⟩, ⟨S3200000x10, y2⟩, ⟨S3200000x10, y3⟩] h (ix2 e (⟨10 + k.val, by have := k.isLt; omega⟩ : Fin 35)) = y1 (ix2 e k) :=
  concatenate_apply_piece 1 _ h _ 1 (by show 1 < 4; omega) S3200000x5 y1 rfl rfl 10 rfl (ix2 e k)
    (fun b hb => by
      match b with
      | ⟨0, _⟩ => rfl
      | ⟨1, _⟩ => exact absurd rfl hb)
    (by show 10 + k.val = 10 + k.val; omega)

/-- Coordinates 15–24 of a joined row are the third piece's row. -/
theorem cat_run2 {α : Type} (y0 : S3200000x10.Idx → α) (y1 : S3200000x5.Idx → α) (y2 y3 : S3200000x10.Idx → α)
    (h : Shape.Concatenates (([⟨S3200000x10, y0⟩, ⟨S3200000x5, y1⟩, ⟨S3200000x10, y2⟩, ⟨S3200000x10, y3⟩] : List ((s : Shape) × (s.Idx → α))).map (·.1)) S3200000x35 1)
    (e : Fin 3200000) (k : Fin 10) :
    concatenate S3200000x35 1 [⟨S3200000x10, y0⟩, ⟨S3200000x5, y1⟩, ⟨S3200000x10, y2⟩, ⟨S3200000x10, y3⟩] h (ix2 e (⟨15 + k.val, by have := k.isLt; omega⟩ : Fin 35)) = y2 (ix2 e k) :=
  concatenate_apply_piece 1 _ h _ 2 (by show 2 < 4; omega) S3200000x10 y2 rfl rfl 15 rfl (ix2 e k)
    (fun b hb => by
      match b with
      | ⟨0, _⟩ => rfl
      | ⟨1, _⟩ => exact absurd rfl hb)
    (by show 15 + k.val = 15 + k.val; omega)

/-- Coordinates 25–34 of a joined row are the fourth piece's row. -/
theorem cat_run3 {α : Type} (y0 : S3200000x10.Idx → α) (y1 : S3200000x5.Idx → α) (y2 y3 : S3200000x10.Idx → α)
    (h : Shape.Concatenates (([⟨S3200000x10, y0⟩, ⟨S3200000x5, y1⟩, ⟨S3200000x10, y2⟩, ⟨S3200000x10, y3⟩] : List ((s : Shape) × (s.Idx → α))).map (·.1)) S3200000x35 1)
    (e : Fin 3200000) (k : Fin 10) :
    concatenate S3200000x35 1 [⟨S3200000x10, y0⟩, ⟨S3200000x5, y1⟩, ⟨S3200000x10, y2⟩, ⟨S3200000x10, y3⟩] h (ix2 e (⟨25 + k.val, by have := k.isLt; omega⟩ : Fin 35)) = y3 (ix2 e k) :=
  concatenate_apply_piece 1 _ h _ 3 (by show 3 < 4; omega) S3200000x10 y3 rfl rfl 25 rfl (ix2 e k)
    (fun b hb => by
      match b with
      | ⟨0, _⟩ => rfl
      | ⟨1, _⟩ => exact absurd rfl hb)
    (by show 25 + k.val = 25 + k.val; omega)

/-! ## The two layers -/

/-- The activated first layer at edge `e`, feature `k`: the one product over the 35 joined coordinates plus the bias is
    the sum of the four band products plus the bias (`hid`), under the activation. -/
theorem layer1 (x0 : (⟨S100000x10, .f32⟩ : BufTy).Contents (Elt Ideal)) (x1 : (⟨S100000x5, .f32⟩ : BufTy).Contents (Elt Ideal)) (x2 : (⟨S2x3200000, .i32⟩ : BufTy).Contents (Elt Ideal)) (x3 : (⟨S3200000x10, .f32⟩ : BufTy).Contents (Elt Ideal)) (x4 : (⟨S16x10, .f32⟩ : BufTy).Contents (Elt Ideal)) (x5 : (⟨S3200000, .i32⟩ : BufTy).Contents (Elt Ideal)) (x6 : (⟨S35x10, .f32⟩ : BufTy).Contents (Elt Ideal)) (x7 : (⟨S10, .f32⟩ : BufTy).Contents (Elt Ideal)) (e : Fin 3200000) (k : Fin 10) :
    val_main_v34 (F := Ideal) x0 x1 x2 x3 x4 x5 x6 x7 (ix2 e k)
      = act (hid (fun k' => val_main_v10 (F := Ideal) x0 x2 (ix2 e k')) (fun k' => val_main_v17 (F := Ideal) x1 x2 (ix2 e k'))
          (fun k' => x3 (ix2 e k')) (fun k' => val_main_v24 (F := Ideal) x4 x5 (ix2 e k'))
          (fun k' j => x6 (ix2 k' j)) (fun j => x7 (ix1 j)) k) := by
  have hpre : val_main_v29 (F := Ideal) x0 x1 x2 x3 x4 x5 x6 x7 (ix2 e k)
      = hid (fun k' => val_main_v10 (F := Ideal) x0 x2 (ix2 e k')) (fun k' => val_main_v17 (F := Ideal) x1 x2 (ix2 e k'))
          (fun k' => x3 (ix2 e k')) (fun k' => val_main_v24 (F := Ideal) x4 x5 (ix2 e k'))
          (fun k' j => x6 (ix2 k' j)) (fun j => x7 (ix1 j)) k := by
    rw [val_main_v29_apply, val_main_v26_apply, val_main_v28_apply, val_main_v27_apply]
    have e1 : ∀ k' : Fin 35, lidx_main_v26 (ix2 e k) k' = ix2 e k' := fun k' =>
      funext fun a => Fin.ext (by match a with | ⟨0, _⟩ => rfl | ⟨1, _⟩ => rfl)
    have e2 : ∀ k' : Fin 35, ridx_main_v26 (ix2 e k) k' = ix2 k' k := fun k' =>
      funext fun a => Fin.ext (by match a with | ⟨0, _⟩ => rfl | ⟨1, _⟩ => rfl)
    have e3 : idx_main_v27 (idx_main_v28 (ix2 e k)) = ix1 k :=
      funext fun a => Fin.ext (by match a with | ⟨0, _⟩ => rfl)
    simp only [e1, e2, e3]
    exact hid_of_cat (fun k' => val_main_v25 (F := Ideal) x0 x1 x2 x3 x4 x5 (ix2 e k')) _ _ _ _
      (fun k' j => x6 (ix2 k' j)) (fun j => x7 (ix1 j)) k
      (fun k' => cat_run0 _ _ _ _ _ e k') (fun k' => cat_run1 _ _ _ _ _ e k')
      (fun k' => cat_run2 _ _ _ _ _ e k') (fun k' => cat_run3 _ _ _ _ _ e k')
  rw [val_main_v34_apply, val_main_v31_apply, val_main_v33_apply, val_main_v30_apply, val_main_v32_apply,
    val_main_cst_apply, val_main_cst_5_apply, hpre]
  rfl

/-- THE REFERENCE IS `G` of its three gathered arrays and its arguments, index by index. -/
theorem ref_eq_G (x0 : (⟨S100000x10, .f32⟩ : BufTy).Contents (Elt Ideal)) (x1 : (⟨S100000x5, .f32⟩ : BufTy).Contents (Elt Ideal)) (x2 : (⟨S2x3200000, .i32⟩ : BufTy).Contents (Elt Ideal)) (x3 : (⟨S3200000x10, .f32⟩ : BufTy).Contents (Elt Ideal)) (x4 : (⟨S16x10, .f32⟩ : BufTy).Contents (Elt Ideal)) (x5 : (⟨S3200000, .i32⟩ : BufTy).Contents (Elt Ideal)) (x6 : (⟨S35x10, .f32⟩ : BufTy).Contents (Elt Ideal)) (x7 : (⟨S10, .f32⟩ : BufTy).Contents (Elt Ideal)) (x8 : (⟨S10x10, .f32⟩ : BufTy).Contents (Elt Ideal)) (x9 : (⟨S10, .f32⟩ : BufTy).Contents (Elt Ideal)) :
    val_main_v38 (F := Ideal) x0 x1 x2 x3 x4 x5 x6 x7 x8 x9
      = G (val_main_v10 (F := Ideal) x0 x2) (val_main_v17 (F := Ideal) x1 x2) x3 (val_main_v24 (F := Ideal) x4 x5) x6
          (fun k => x7 (ix1 k)) x8 (fun k => x9 (ix1 k)) := by
  funext i
  obtain ⟨e, j, rfl⟩ : ∃ (e : Fin 3200000) (j : Fin 10), i = ix2 e j := ⟨i 0, i 1, eq_ix2 i⟩
  rw [val_main_v38_apply, val_main_v35_apply, val_main_v37_apply, val_main_v36_apply]
  unfold G out
  refine congrArg₂ (· + ·) (Finset.sum_congr rfl fun k _ => ?_) ?_
  · have hl : lidx_main_v35 (ix2 e j) k = ix2 e k :=
      funext fun a => Fin.ext (by match a with | ⟨0, _⟩ => rfl | ⟨1, _⟩ => rfl)
    have hr : ridx_main_v35 (ix2 e j) k = ix2 k j :=
      funext fun a => Fin.ext (by match a with | ⟨0, _⟩ => rfl | ⟨1, _⟩ => rfl)
    rw [hl, hr]
    exact congrArg (· * x8 (ix2 k j)) (layer1 x0 x1 x2 x3 x4 x5 x6 x7 e k)
  · exact congrArg x9 (funext fun a => Fin.ext (by match a with | ⟨0, _⟩ => rfl))

end Cert.ReferenceIdeal.Hand

end
-- ==== Proof.lean ====
/-
  The kernel and its reference compute the same edge perceptron over the extended reals.

  For each of 3 200 000 edges both programs gather the edge's source row (10 numbers), target row (5) and graph row (10),
  join them with the edge's own 10 features, and apply a two-layer perceptron: `W1` (35×10) and a bias, an activation
  that keeps `h` where `h ≥ 0` and scales it by a fixed slope otherwise, then `W2` (10×10) and a bias. The reference
  multiplies the joined row of 35 numbers by `W1` in one product; the kernel, working on blocks of 6400 edges, never joins
  the rows: it multiplies each of the four rows by the band of rows of `W1` it meets and adds the four products.

  Over the extended reals a change of float format is the identity and a product into a zero accumulator is the plain
  sum over the contracted axis, so the two differ only in how a sum of 35 terms is cut into runs of 10, 5, 10 and 10
  terms: commutativity and associativity of addition, which hold with infinite entries too — the finiteness of the inputs
  is never used. The gathers are the same operations on the same arguments on both sides and are carried unopened.

  `Row` states the perceptron of one edge and the law of the four runs; `KernelBlock` reads the kernel body's result
  at an element of a block; `KernelArray` goes from the 500 blocks to the whole array; `RefValue` reads the reference
  at an element; `Bridge` identifies the arrays the kernel's region finds with the reference's stages. The kernel's
  idealization rewrote nothing, so the idealization claim is trivial; the three frame claims are the generated frame
  runs (the reference's is its generated run with the result dropped).
-/
import proofs.«158776_j11227044512392_1_alg».proof.Defs
import proofs.«158776_j11227044512392_1_alg».proof.Proof.Gen.Kernel
import proofs.«158776_j11227044512392_1_alg».proof.Proof.Gen.Kernel.Frame
import proofs.«158776_j11227044512392_1_alg».proof.Proof.Gen.KernelIdeal
import proofs.«158776_j11227044512392_1_alg».proof.Proof.Gen.KernelIdeal.Frame
import proofs.«158776_j11227044512392_1_alg».proof.Proof.Gen.KernelIdeal.Value
import proofs.«158776_j11227044512392_1_alg».proof.Proof.Gen.ReferenceIdeal
import proofs.«158776_j11227044512392_1_alg».proof.Proof.Gen.ReferenceIdeal.Run
import proofs.«158776_j11227044512392_1_alg».proof.Proof.Gen.ReferenceIdeal.Read
import proofs.«158776_j11227044512392_1_alg».proof.Proof.Gen.Pre_finite_inputs
import proofs.«158776_j11227044512392_1_alg».proof.Proof.Bridge
import proofs.«158776_j11227044512392_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the common result `G` of the gather stages and the arguments: the kernel's by the blocks'
    cover, the reference's by the law of the four runs, the arguments' agreement rewritten. -/
theorem algebraic : Cert.algebraic_KernelIdeal_ReferenceIdeal := by
  intro m ρ m' ρ' _ hagree
  refine ⟨fun c => Cert.KernelIdeal.Hand.result m c, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.Hand.ref_eq_G]
  obtain ⟨h0, h1, h2, h3, h4, h5, h6, h7, h8, h9⟩ := hagree c
  rw [h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
